-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S4096 : Shape := ⟨1, ![4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S64x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S64x4096 : Shape := ⟨2, ![64, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩
abbrev S64x1024 : Shape := ⟨2, ![64, 1024]⟩

abbrev nBuf : Space → Nat
  | .hbm => 11
  | .vmem => 16
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S64x4096, .f32⟩
  | .local _ .vmem, ⟨0, _⟩ => ⟨S64x4096, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v16 : BitVec 32 := Scalar.muli arg1 c1024_i32
  v16
def k0_off1 (i : grid0.Coords) : Fin 2 → Nat :=
  let c0_7 : Index := 0#32
  let arg1 : BitVec 32 := BitVec.ofNat 32 (i 1).val
  let c1024_i32 : BitVec 32 := 1024#32
  let v16 : BitVec 32 := Scalar.muli arg1 c1024_i32
  let v17 : BitVec 32 := v16
  let v18 : Index := Scalar.indexCast v17
  ![0, v18.toNat]
def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4096_S1x4096 : S4096.ShapeCasts S1x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  dot_S64x1024_S1024x1024_S64x1024_1_1_0_0_n_n_wf : DotDims.WF S64x1024 S1024x1024 S64x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x4096.size a
  hwx0_7 : ∀ i : grid0.Coords, EltTy.bits .f32 = 32 ∨ (Rect.block (s := S64x4096) S64x1024.size (cc0_transform_7 i) (hinb0_7 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S64x4096, .f32⟩
  | .hbm, ⟨40, _⟩ => ⟨S1x4096, .f32⟩
  | .hbm, ⟨41, _⟩ => ⟨S64x4096, .f32⟩
  | .hbm, ⟨42, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  dot_S64x4096_S4096x4096_S64x4096_1_1_0_0_n_n_wf : DotDims.WF S64x4096 S4096x4096 S64x4096 [1] [1] [0] [0] [] []

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

class Facts : Prop extends Facts₀ where

variable [Facts]
-- ==== Proof.Softplus.lean ====
/-
  Softplus on the extended reals, and the sampled parameter built from it.

  Both programs compute `softplus r = max r 0 + log (1 + e^(-|r|))`. The kernel writes it directly, with
  `-|r|` as `0 - |r|`. The reference writes `logaddexp 0 r`: with `d = 0 - r` it first asks whether `d ≠ d`
  (a test for an undefined difference, which no extended real satisfies), and otherwise takes
  `max 0 r + log (1 + e^(-|d|))`. Since `0 - r = -r` and `|-r| = |r|`, that is the same function of `r` on every
  extended real, the infinities included; no finiteness is used.
-/
import Idealize.ShloMosaic.PureOps.Ideal
import Idealize.ShloMosaic.PureOps.Ideal.Laws
import Idealize.ShloMosaic.Lib.ValueIdx

noncomputable section

namespace Cert.BayesLinear

open Idealize.ShloMosaic

/-- `softplus r = max r 0 + log (1 + e^(0 - |r|))`, with `|r| = max r (-r)`. -/
def softplus (r : EReal) : EReal := max r 0 + Ideal.log1p (Ideal.exp (0 - max r (-r)))

/-- The sampled parameter `μ + ε · softplus ρ`. -/
def sample (mu rho eps : EReal) : EReal := mu + eps * softplus rho

/-- No extended real differs from itself, so the reference's guard is never taken. -/
theorem cmp_une_self (d : EReal) : Ideal.cmp .une d d = 0#1 := by
  simp [Ideal.cmp]

/-- The reference's guarded `logaddexp 0 r` is `softplus r`. -/
theorem guarded_eq (r : EReal) :
    Scalar.select (Ideal.cmp .une (0 - r) (0 - r)) (0 + r)
      (max 0 r + Ideal.log1p (Ideal.exp (-(max (0 - r) (-(0 - r)))))) = softplus r := by
  rw [cmp_une_self, ValueIdx.select_zero]
  unfold softplus
  rw [zero_sub, neg_neg, max_comm (0 : EReal) r, max_comm (-r) r, zero_sub]

end Cert.BayesLinear

end
-- ==== Proof.Spec.lean ====
/-
  The specification: the Bayesian linear layer as ONE function of the seven argument arrays.

    out[b, o] = (Σ_{k < 4096} x[b, k] · W[o, k]) + bias[o]
    W[o, k]   = W_mu[o, k] + W_rand[o, k] · softplus (W_rho[o, k])
    bias[o]   = b_mu[o] + b_rand[o] · softplus (b_rho[o])

  The kernel reaches the sum in four steps of 1024 terms, carried in an accumulator. To state what the accumulator
  holds after each step without naming the steps one by one, the summand is extended to the natural numbers
  (`term`, zero past 4095); the accumulator after `n` steps is then the sum over `range (1024 · n)`, one more step
  adds the next 1024 terms (`Finset.sum_range_add`), and four steps give the whole sum. Only commutativity and
  associativity of `+` on the extended reals are used, so nothing here needs the inputs to be finite.
-/
import proofs.«140604_j37950331027759_2_alg».proof.Proof.Softplus
import Idealize.ShloMosaic.Lib.ValueIdx

noncomputable section

namespace Cert.BayesLinear

open Idealize.ShloMosaic Idealize.ShloMosaic.ValueIdx

abbrev SX : Shape := ⟨2, ![64, 4096]⟩
abbrev SW : Shape := ⟨2, ![4096, 4096]⟩
abbrev SB : Shape := ⟨1, ![4096]⟩

/-- The sampled weight matrix, entry by entry. -/
def weight (Wmu Wrho Wrand : SW.Idx → EReal) (o k : Fin 4096) : EReal :=
  sample (Wmu (ix2 o k)) (Wrho (ix2 o k)) (Wrand (ix2 o k))

/-- The sampled bias vector, entry by entry. -/
def bias (bmu brho brand : SB.Idx → EReal) (o : Fin 4096) : EReal :=
  sample (bmu (ix1 o)) (brho (ix1 o)) (brand (ix1 o))

/-- Entry `(b, o)` of the layer's result: row `b` of `x` against row `o` of the sampled weights, plus the bias. -/
def entry (x : SX.Idx → EReal) (Wmu Wrho : SW.Idx → EReal) (bmu brho : SB.Idx → EReal) (Wrand : SW.Idx → EReal)
    (brand : SB.Idx → EReal) (b : Fin 64) (o : Fin 4096) : EReal :=
  (∑ k : Fin 4096, x (ix2 b k) * weight Wmu Wrho Wrand o k) + bias bmu brho brand o

/-- The layer's result: `x · Wᵀ + bias`. -/
def G (x : SX.Idx → EReal) (Wmu Wrho : SW.Idx → EReal) (bmu brho : SB.Idx → EReal) (Wrand : SW.Idx → EReal)
    (brand : SB.Idx → EReal) : SX.Idx → EReal :=
  fun i => entry x Wmu Wrho bmu brho Wrand brand (i 0) (i 1)

theorem G_ix2 (x : SX.Idx → EReal) (Wmu Wrho : SW.Idx → EReal) (bmu brho : SB.Idx → EReal) (Wrand : SW.Idx → EReal)
    (brand : SB.Idx → EReal) (b : Fin 64) (o : Fin 4096) :
    G x Wmu Wrho bmu brho Wrand brand (ix2 b o) = entry x Wmu Wrho bmu brho Wrand brand b o := rfl

/-- The `k`-th summand of entry `(b, o)`, extended by zero to every natural number. -/
def term (x : SX.Idx → EReal) (W : Fin 4096 → Fin 4096 → EReal) (b : Fin 64) (o : Fin 4096) (k : ℕ) : EReal :=
  if h : k < 4096 then x (ix2 b ⟨k, h⟩) * W o ⟨k, h⟩ else 0

/-- What the accumulator holds after `n` steps: the first `1024 · n` summands. -/
def partialSum (x : SX.Idx → EReal) (W : Fin 4096 → Fin 4096 → EReal) (b : Fin 64) (o : Fin 4096) (n : ℕ) : EReal :=
  ∑ k ∈ Finset.range (1024 * n), term x W b o k

theorem partialSum_zero (x : SX.Idx → EReal) (W : Fin 4096 → Fin 4096 → EReal) (b : Fin 64) (o : Fin 4096) :
    partialSum x W b o 0 = 0 := by
  simp [partialSum]

/-- One more step adds the next 1024 summands. -/
theorem partialSum_succ (x : SX.Idx → EReal) (W : Fin 4096 → Fin 4096 → EReal) (b : Fin 64) (o : Fin 4096) (n : ℕ) :
    partialSum x W b o (n + 1) = partialSum x W b o n + ∑ k ∈ Finset.range 1024, term x W b o (1024 * n + k) := by
  unfold partialSum
  rw [show 1024 * (n + 1) = 1024 * n + 1024 from by ring, Finset.sum_range_add]

/-- A step's 1024 summands, as the sum over the step's own index. -/
theorem step_sum (x : SX.Idx → EReal) (W : Fin 4096 → Fin 4096 → EReal) (b : Fin 64) (o : Fin 4096) (n : ℕ)
    (hn : n < 4) (g : Fin 1024 → EReal)
    (hg : ∀ k : Fin 1024, g k = x (ix2 b ⟨1024 * n + k.val, by have := k.isLt; omega⟩)
      * W o ⟨1024 * n + k.val, by have := k.isLt; omega⟩) :
    ∑ k : Fin 1024, g k = ∑ k ∈ Finset.range 1024, term x W b o (1024 * n + k) := by
  rw [Finset.sum_range]
  refine Finset.sum_congr rfl fun k _ => ?_
  rw [hg k]
  unfold term
  rw [dif_pos (by have := k.isLt; omega)]

/-- After four steps the accumulator holds the whole sum. -/
theorem partialSum_four (x : SX.Idx → EReal) (W : Fin 4096 → Fin 4096 → EReal) (b : Fin 64) (o : Fin 4096) :
    partialSum x W b o 4 = ∑ k : Fin 4096, x (ix2 b k) * W o k := by
  unfold partialSum
  rw [show 1024 * 4 = 4096 from rfl, Finset.sum_range]
  refine Finset.sum_congr rfl fun k _ => ?_
  unfold term
  rw [dif_pos k.isLt]

end Cert.BayesLinear

end
-- ==== Proof.RefValue.lean ====
/-
  The reference's result, read index by index, is the specification `G`.

  The reference forms the whole sampled weight matrix `W_mu + W_rand · logaddexp 0 W_rho` and the sampled bias
  the same way, contracts `x` with the matrix over the shared input-feature axis, and adds the bias broadcast
  along the batch. Read at an entry, the weight is `sample` of the three weight entries (the guarded
  `logaddexp` being softplus), the contraction is the sum over `k` of `x[b, k] · W[o, k]`, and the two
  broadcasts read the bias at `o`.
-/
import proofs.«140604_j37950331027759_2_alg».proof.Proof.Spec
import proofs.«140604_j37950331027759_2_alg».proof.Proof.Gen.ReferenceIdeal.Read

noncomputable section

namespace Cert.BayesLinear.RefValue

open Cert.ReferenceIdeal Cert.ReferenceIdeal.Read Cert.BayesLinear
open Idealize.ShloMosaic Idealize.ShloMosaic.ValueIdx

/-- An entry of the reference's sampled weight matrix. -/
theorem weight_apply (x1 x2 x5 : (⟨S4096x4096, .f32⟩ : BufTy).Contents (Elt Ideal)) (j : S4096x4096.Idx) :
    val_main_v14 (F := Ideal) x1 x2 x5 j = sample (x1 j) (x2 j) (x5 j) := by
  rw [val_main_v14_apply, val_main_v13_apply, val_main_v12_apply, val_main_v4_apply, val_main_v6_apply,
    val_main_v11_apply, val_main_v1_apply, val_main_v10_apply, val_main_v9_apply, val_main_v8_apply,
    val_main_v7_apply, val_main_v3_apply, val_main_v5_apply, val_main_v2_apply, val_main_v0_apply,
    val_main_cst_apply]
  simp only [Ideal.addf_def, Ideal.mulf_def, Ideal.subf_def, Ideal.maximumf_def, Ideal.cmpf_def,
    Ideal.hostAbsf_def, Ideal.absf_def, Ideal.hostNegf_def, Ideal.negf_def, Ideal.hostUnary_exp_def,
    Ideal.hostUnary_log1p_def, Ideal.ofBits_def, Ideal.ofBits_zero_f32]
  rw [guarded_eq]
  rfl

/-- An entry of the reference's sampled bias vector. -/
theorem bias_apply (x3 x4 x6 : (⟨S4096, .f32⟩ : BufTy).Contents (Elt Ideal)) (j : S4096.Idx) :
    val_main_v29 (F := Ideal) x3 x4 x6 j = sample (x3 j) (x4 j) (x6 j) := by
  rw [val_main_v29_apply, val_main_v28_apply, val_main_v27_apply, val_main_v19_apply, val_main_v21_apply,
    val_main_v26_apply, val_main_v16_apply, val_main_v25_apply, val_main_v24_apply, val_main_v23_apply,
    val_main_v22_apply, val_main_v18_apply, val_main_v20_apply, val_main_v17_apply, val_main_v15_apply,
    val_main_cst_0_apply]
  simp only [Ideal.addf_def, Ideal.mulf_def, Ideal.subf_def, Ideal.maximumf_def, Ideal.cmpf_def,
    Ideal.hostAbsf_def, Ideal.absf_def, Ideal.hostNegf_def, Ideal.negf_def, Ideal.hostUnary_exp_def,
    Ideal.hostUnary_log1p_def, Ideal.ofBits_def, Ideal.ofBits_zero_f32]
  rw [guarded_eq]
  rfl

theorem lidx_eq (b : Fin 64) (o k : Fin 4096) : lidx_main_v30 (ix2 b o) k = ix2 b k :=
  funext fun a => Fin.ext (by match a with | ⟨0, _⟩ => rfl | ⟨1, _⟩ => rfl)

theorem ridx_eq (b : Fin 64) (o k : Fin 4096) : ridx_main_v30 (ix2 b o) k = ix2 o k :=
  funext fun a => Fin.ext (by match a with | ⟨0, _⟩ => rfl | ⟨1, _⟩ => rfl)

theorem bidx_eq (b : Fin 64) (o : Fin 4096) : idx_main_v31 (idx_main_v32 (ix2 b o)) = ix1 o :=
  funext fun a => Fin.ext (by match a with | ⟨0, _⟩ => rfl)

/-- The reference's result is `G` of its seven arguments. -/
theorem result_eq (x0 : (⟨S64x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v33 (F := Ideal) x0 x1 x2 x3 x4 x5 x6 = G x0 x1 x2 x3 x4 x5 x6 := by
  funext i
  obtain ⟨b, o, rfl⟩ : ∃ (b : Fin 64) (o : Fin 4096), i = ix2 b o := ⟨i 0, i 1, eq_ix2 i⟩
  rw [val_main_v33_apply, val_main_v30_apply, val_main_v32_apply, val_main_v31_apply, bias_apply, bidx_eq, G_ix2]
  refine congrArg₂ (fun a b : EReal => a + b) (Finset.sum_congr rfl fun k _ => ?_) rfl
  rw [lidx_eq, ridx_eq, weight_apply]
  rfl

end Cert.BayesLinear.RefValue

end
-- ==== Proof.Pieces.lean ====
/-
  What one grid point's body leaves behind, as values.

  The grid is 4 × 4: the first coordinate picks a block of 1024 output features, the second a block of 1024 input
  features (the reduction step). The body keeps a 64 × 1024 accumulator across the four steps of one output block.
  At every step it loads the three 1024 × 1024 weight blocks and the step's 64 × 1024 tile of `x` (columns
  `1024 · step` onward of the resident `x`), and stores `accumulator + tile · sampledWeightᵀ` back — the
  accumulator update. At step 0 it first stores zeros, so the update reads zeros back; at step 3 it then adds the
  sampled bias row to the updated accumulator and stores that into the output block.

  Each lemma below reads one such stored block back as the body's arithmetic of the blocks it loaded: the stores
  cover their buffers whole, so what is read back is the last store's value.
-/
import proofs.«140604_j37950331027759_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The step's tile of `x`: all 64 rows, the 1024 columns starting at the step's offset. -/
abbrev xtile (i : grid0.Coords) (x0 : Vec F S64x4096 .f32) : Vec F S64x1024 .f32 :=
  View.ld x0 (Rect.unit (s := S64x4096) (k0_off1 i) S64x1024.size (Facts₀.k0_off1_inb i))

/-- At step 0 the accumulator is left at the update of the zeros just stored. -/
theorem scratch_first (c : Dev nD) (i : grid0.Coords) (arg2 : Memref sig .tc .vmem S64x4096 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : cond0_0 i) (hc1 : ¬cond0_1 i) (x0 : Vec F S64x4096 .f32) (x1 : Vec F S1024x1024 .f32) (x2 : Vec F S1024x1024 .f32) (x3 : Vec F S1024x1024 .f32) (x4 : Vec F S1x1024 .f32) (x5 : Vec F S1x1024 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x2 x1 x3 (xtile i x0) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S64x1024) hz, View.readCov_unit_zero (S := S64x1024) _ hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S64x1024) hz, View.ld_unit_zero (S := S1x1024) hz]
  rfl

/-- At steps 1 and 2 the accumulator is left at the update of what the step before left. -/
theorem scratch_middle (c : Dev nD) (i : grid0.Coords) (arg2 : Memref sig .tc .vmem S64x4096 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : ¬cond0_1 i) (x0 : Vec F S64x4096 .f32) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S64x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 (xtile i x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S64x1024) hz, View.ld_unit_zero (S := S1x1024) hz]

/-- At step 3 the accumulator is updated the same way. -/
theorem scratch_last (c : Dev nD) (i : grid0.Coords) (arg2 : Memref sig .tc .vmem S64x4096 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : cond0_1 i) (x0 : Vec F S64x4096 .f32) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S64x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 (xtile i x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S64x1024) hz, View.ld_unit_zero (S := S1x1024) hz]
  rfl

/-- At step 3 the output block is left at the updated accumulator plus the sampled bias row. -/
theorem output_last (c : Dev nD) (i : grid0.Coords) (arg2 : Memref sig .tc .vmem S64x4096 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : cond0_1 i) (x0 : Vec F S64x4096 .f32) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S64x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x5 x4 x6 (k0_pay2 x2 x1 x3 (xtile i x0) xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S64x1024) _ hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S64x1024) hz, View.ld_unit_zero (S := S1x1024) hz]
  rfl

end Cert.KernelIdeal.Pieces

end
-- ==== Proof.Geometry.lean ====
/-
  Where a grid point's blocks sit in the arrays.

  Point `t` of the 4 × 4 grid has output block `t / 4` and reduction step `t % 4`. Entry `(j, k)` of a weight block at
  `t` is entry `(1024 · (t / 4) + j, 1024 · (t % 4) + k)` of the weight array; entry `(0, j)` of a bias block is entry
  `(0, 1024 · (t / 4) + j)` of the one-row bias array; the window of `x` is the whole array, and the step's tile reads
  its columns `1024 · (t % 4) + k`. (A block's coordinate is its block index times the block size plus the
  coordinate inside the block; the block indices are decided once over the sixteen points.) The three one-row bias
  arrays are the host's reshapes of the bias arguments, so their entry `(0, o)` is the argument's entry `o`.
-/
import proofs.«140604_j37950331027759_2_alg».proof.Proof.Pieces
import Idealize.ShloMosaic.Lib.ValueIdx
import Idealize.ShloMosaic.Lib.ValueLayout
import Idealize.ShloMosaic.Lib.StableHlo.Run

set_option maxRecDepth 16384

noncomputable section

namespace Cert.KernelIdeal.Geometry

open Cert.KernelIdeal Cert.KernelIdeal.Gen Cert.KernelIdeal.Pieces
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The output feature that row `j` of point `n`'s blocks is. -/
abbrev orow (n : ℕ) (hn : n < 16) (j : Fin 1024) : Fin 4096 := ⟨1024 * (n / 4) + j.val, by have := j.isLt; omega⟩

/-- The input feature that column `k` of point `n`'s blocks is. -/
abbrev icol (n : ℕ) (k : Fin 1024) : Fin 4096 := ⟨1024 * (n % 4) + k.val, by have := k.isLt; omega⟩

theorem idxX : ∀ t : Fin cfg0.N, win0_0.index t 0 = 0 ∧ win0_0.index t 1 = 0 :=
  (by decide +kernel : ∀ t : Fin grid0.N, win0_0.index t 0 = 0 ∧ win0_0.index t 1 = 0)
theorem idxW1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idxW2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idxW3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem idxB4 : ∀ t : Fin cfg0.N, win0_4.index t 0 = 0 ∧ win0_4.index t 1 = t.val / 4 :=
  (by decide +kernel : ∀ t : Fin grid0.N, win0_4.index t 0 = 0 ∧ win0_4.index t 1 = t.val / 4)
theorem idxB5 : ∀ t : Fin cfg0.N, win0_5.index t 0 = 0 ∧ win0_5.index t 1 = t.val / 4 :=
  (by decide +kernel : ∀ t : Fin grid0.N, win0_5.index t 0 = 0 ∧ win0_5.index t 1 = t.val / 4)
theorem idxB6 : ∀ t : Fin cfg0.N, win0_6.index t 0 = 0 ∧ win0_6.index t 1 = t.val / 4 :=
  (by decide +kernel : ∀ t : Fin grid0.N, win0_6.index t 0 = 0 ∧ win0_6.index t 1 = t.val / 4)
theorem idxO : ∀ t : Fin cfg0.N, win0_7.index t 0 = 0 ∧ win0_7.index t 1 = t.val / 4 :=
  (by decide +kernel : ∀ t : Fin grid0.N, win0_7.index t 0 = 0 ∧ win0_7.index t 1 = t.val / 4)
theorem tileOff : ∀ t : Fin cfg0.N, k0_off1 (grid0.coords t) 0 = 0 ∧ k0_off1 (grid0.coords t) 1 = 1024 * (t.val % 4) :=
  (by decide +kernel : ∀ t : Fin grid0.N, k0_off1 (grid0.coords t) 0 = 0 ∧ k0_off1 (grid0.coords t) 1 = 1024 * (t.val % 4))

theorem weightBlock1_apply (c : Dev nD) (t : Fin cfg0.N) (hN : t.val < 16) (j k : Fin 1024) :
    (iblk m c 1 t : FVec Ideal S1024x1024 .f32) (ix2 j k) = V m c main_arg1 (ix2 (orow t.val hN j) (icol t.val k)) := by
  have hi := idxW1 t
  unfold iblk
  rw [View.read_apply]
  show V m c main_arg1 _ = V m c main_arg1 _
  congr 1
  funext a
  apply Fin.ext
  match a with
  | ⟨0, _⟩ => show win0_1.index t 0 * 1024 + 1 * j.val = 1024 * (t.val / 4) + j.val; rw [hi.1]; omega
  | ⟨1, _⟩ => show win0_1.index t 1 * 1024 + 1 * k.val = 1024 * (t.val % 4) + k.val; rw [hi.2]; omega

theorem weightBlock2_apply (c : Dev nD) (t : Fin cfg0.N) (hN : t.val < 16) (j k : Fin 1024) :
    (iblk m c 2 t : FVec Ideal S1024x1024 .f32) (ix2 j k) = V m c main_arg2 (ix2 (orow t.val hN j) (icol t.val k)) := by
  have hi := idxW2 t
  unfold iblk
  rw [View.read_apply]
  show V m c main_arg2 _ = V m c main_arg2 _
  congr 1
  funext a
  apply Fin.ext
  match a with
  | ⟨0, _⟩ => show win0_2.index t 0 * 1024 + 1 * j.val = 1024 * (t.val / 4) + j.val; rw [hi.1]; omega
  | ⟨1, _⟩ => show win0_2.index t 1 * 1024 + 1 * k.val = 1024 * (t.val % 4) + k.val; rw [hi.2]; omega

theorem weightBlock3_apply (c : Dev nD) (t : Fin cfg0.N) (hN : t.val < 16) (j k : Fin 1024) :
    (iblk m c 3 t : FVec Ideal S1024x1024 .f32) (ix2 j k) = V m c main_arg5 (ix2 (orow t.val hN j) (icol t.val k)) := by
  have hi := idxW3 t
  unfold iblk
  rw [View.read_apply]
  show V m c main_arg5 _ = V m c main_arg5 _
  congr 1
  funext a
  apply Fin.ext
  match a with
  | ⟨0, _⟩ => show win0_3.index t 0 * 1024 + 1 * j.val = 1024 * (t.val / 4) + j.val; rw [hi.1]; omega
  | ⟨1, _⟩ => show win0_3.index t 1 * 1024 + 1 * k.val = 1024 * (t.val % 4) + k.val; rw [hi.2]; omega

theorem biasBlock4_apply (c : Dev nD) (t : Fin cfg0.N) (hN : t.val < 16) (j : Fin 1024) :
    (iblk m c 4 t : FVec Ideal S1x1024 .f32) (ix2 (0 : Fin 1) j) = V m c main_v0 (ix2 (0 : Fin 1) (orow t.val hN j)) := by
  have hi := idxB4 t
  unfold iblk
  rw [View.read_apply]
  show V m c main_v0 _ = V m c main_v0 _
  congr 1
  funext a
  apply Fin.ext
  match a with
  | ⟨0, _⟩ => show win0_4.index t 0 * 1 + 1 * 0 = 0; rw [hi.1]
  | ⟨1, _⟩ => show win0_4.index t 1 * 1024 + 1 * j.val = 1024 * (t.val / 4) + j.val; rw [hi.2]; omega

theorem biasBlock5_apply (c : Dev nD) (t : Fin cfg0.N) (hN : t.val < 16) (j : Fin 1024) :
    (iblk m c 5 t : FVec Ideal S1x1024 .f32) (ix2 (0 : Fin 1) j) = V m c main_v1 (ix2 (0 : Fin 1) (orow t.val hN j)) := by
  have hi := idxB5 t
  unfold iblk
  rw [View.read_apply]
  show V m c main_v1 _ = V m c main_v1 _
  congr 1
  funext a
  apply Fin.ext
  match a with
  | ⟨0, _⟩ => show win0_5.index t 0 * 1 + 1 * 0 = 0; rw [hi.1]
  | ⟨1, _⟩ => show win0_5.index t 1 * 1024 + 1 * j.val = 1024 * (t.val / 4) + j.val; rw [hi.2]; omega

theorem biasBlock6_apply (c : Dev nD) (t : Fin cfg0.N) (hN : t.val < 16) (j : Fin 1024) :
    (iblk m c 6 t : FVec Ideal S1x1024 .f32) (ix2 (0 : Fin 1) j) = V m c main_v2 (ix2 (0 : Fin 1) (orow t.val hN j)) := by
  have hi := idxB6 t
  unfold iblk
  rw [View.read_apply]
  show V m c main_v2 _ = V m c main_v2 _
  congr 1
  funext a
  apply Fin.ext
  match a with
  | ⟨0, _⟩ => show win0_6.index t 0 * 1 + 1 * 0 = 0; rw [hi.1]
  | ⟨1, _⟩ => show win0_6.index t 1 * 1024 + 1 * j.val = 1024 * (t.val / 4) + j.val; rw [hi.2]; omega

/-- The step's tile of `x` at point `t`: row `b`, column `1024 · (t % 4) + k` of the whole array. -/
theorem tile_apply (c : Dev nD) (t : Fin cfg0.N) (b : Fin 64) (k : Fin 1024) :
    xtile (grid0.coords t) (iblk m c 0 t : FVec Ideal S64x4096 .f32) (ix2 b k) = V m c main_arg0 (ix2 b (icol t.val k)) := by
  have hi := idxX t
  have ho := tileOff t
  unfold iblk
  show V m c main_arg0 _ = V m c main_arg0 _
  congr 1
  funext a
  apply Fin.ext
  match a with
  | ⟨0, _⟩ =>
    first
    | (show win0_0.index t 0 * 64 + 1 * (k0_off1 (grid0.coords t) 0 + 1 * b.val) = b.val; rw [hi.1, ho.1]; omega)
    | (show win0_0.index t 0 * 64 + 1 * (k0_off1 (grid0.coords t) 0 + b.val) = b.val; rw [hi.1, ho.1]; omega)
  | ⟨1, _⟩ =>
    first
    | (show win0_0.index t 1 * 4096 + 1 * (k0_off1 (grid0.coords t) 1 + 1 * k.val) = 1024 * (t.val % 4) + k.val; rw [hi.2, ho.2]; omega)
    | (show win0_0.index t 1 * 4096 + 1 * (k0_off1 (grid0.coords t) 1 + k.val) = 1024 * (t.val % 4) + k.val; rw [hi.2, ho.2]; omega)

/-- The region finds `biasMu` as the host's reshape of the argument to one row. -/
theorem biasMu_eq (c : Dev nD) :
    (V m c main_v0 : S1x4096.Idx → EReal) = shapeCast S1x4096 (m ((c : Thread nD τ).loc main_arg3)) shapeCasts_S4096_S1x4096 := by
  dsimp only [Gen.V, Gen.hostOps0]; after_results; rfl

theorem biasMu_apply (c : Dev nD) (o : Fin 4096) :
    (V m c main_v0 : S1x4096.Idx → EReal) (ix2 (0 : Fin 1) o) = m ((c : Thread nD τ).loc main_arg3) (ix1 o) := by
  rw [biasMu_eq]
  exact shapeCast_a_1a_apply _ _ _ _

/-- The region finds `biasRho` as the host's reshape of the argument to one row. -/
theorem biasRho_eq (c : Dev nD) :
    (V m c main_v1 : S1x4096.Idx → EReal) = shapeCast S1x4096 (m ((c : Thread nD τ).loc main_arg4)) shapeCasts_S4096_S1x4096 := by
  dsimp only [Gen.V, Gen.hostOps0]; after_results; rfl

theorem biasRho_apply (c : Dev nD) (o : Fin 4096) :
    (V m c main_v1 : S1x4096.Idx → EReal) (ix2 (0 : Fin 1) o) = m ((c : Thread nD τ).loc main_arg4) (ix1 o) := by
  rw [biasRho_eq]
  exact shapeCast_a_1a_apply _ _ _ _

/-- The region finds `biasEps` as the host's reshape of the argument to one row. -/
theorem biasEps_eq (c : Dev nD) :
    (V m c main_v2 : S1x4096.Idx → EReal) = shapeCast S1x4096 (m ((c : Thread nD τ).loc main_arg6)) shapeCasts_S4096_S1x4096 := by
  dsimp only [Gen.V, Gen.hostOps0]; after_results; rfl

theorem biasEps_apply (c : Dev nD) (o : Fin 4096) :
    (V m c main_v2 : S1x4096.Idx → EReal) (ix2 (0 : Fin 1) o) = m ((c : Thread nD τ).loc main_arg6) (ix1 o) := by
  rw [biasEps_eq]
  exact shapeCast_a_1a_apply _ _ _ _

end Cert.KernelIdeal.Geometry

end
-- ==== Proof.Payload.lean ====
/-
  The body's arithmetic, entry by entry, on the extended reals.

  The accumulator update stores `acc + tile · wᵀ`, where `w = μ + ε · softplus ρ` is formed from the three weight
  blocks entry by entry and the product contracts the 1024 input features of the step: at entry `(b, j)` it is
  `acc[b, j] + Σ_{k < 1024} tile[b, k] · sample (μ[j, k]) (ρ[j, k]) (ε[j, k])` (the product's own accumulator is the zero
  block, which adds nothing). The final store adds the sampled bias row, broadcast over the 64 batch rows:
  `acc[b, j] + sample (bμ[0, j]) (bρ[0, j]) (bε[0, j])`.
-/
import proofs.«140604_j37950331027759_2_alg».proof.Proof.Spec
import proofs.«140604_j37950331027759_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.BayesLinear
open Idealize.ShloMosaic Idealize.ShloMosaic.ValueIdx

/-- The body's softplus of a block, as it spells it. -/
def softplusBlock {S : Shape} (rho : FVec Ideal S .f32) : FVec Ideal S .f32 :=
  addf (maximumf rho (broadcast S (Scalar.ofBits .f32 0x00000000#32)))
    (log1p (exp (subf (broadcast S (Scalar.ofBits .f32 0x00000000#32)) (absf rho))))

/-- At an entry it is `softplus` of the entry: the zero word is the real zero. -/
theorem softplusBlock_apply {S : Shape} (rho : FVec Ideal S .f32) (y : S.Idx) :
    softplusBlock rho y = softplus (rho y) := by
  show max (rho y) (Ideal.ofBits .f32 0x00000000#32)
    + Ideal.log1p (Ideal.exp (Ideal.ofBits .f32 0x00000000#32 - max (rho y) (-(rho y)))) = _
  rw [Ideal.ofBits_zero_f32]
  rfl

/-- The sampled block `μ + ε · softplus ρ`, entry by entry. -/
theorem sampleBlock_apply {S : Shape} (mu rho eps : FVec Ideal S .f32) (y : S.Idx) :
    addf mu (mulf eps (softplusBlock rho)) y = sample (mu y) (rho y) (eps y) := by
  show mu y + eps y * softplusBlock rho y = _
  rw [softplusBlock_apply]
  rfl

/-- Where the block product reads its operands: output entry `(b, j)` and contraction index `q` read the tile at
    `(b, q)` and the weight block at `(j, q)` — both operands are contracted along their second axis. -/
theorem lhs_row (i : S64x1024.Idx) (q : dot_S64x1024_S1024x1024_S64x1024_1_1_0_0_n_n.contr.Idx) : (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide),
    dif_pos (show (0 : Fin S64x1024.rank) ∈ dot_S64x1024_S1024x1024_S64x1024_1_1_0_0_n_n.lhsNonContracting by decide)]
  rfl
theorem lhs_col (i : S64x1024.Idx) (q : dot_S64x1024_S1024x1024_S64x1024_1_1_0_0_n_n.contr.Idx) : (dot_S64x1024_S1024x1024_S64x1024_1_1_0_0_n_n.lhsIdx i q 1).val = (q ⟨0, by decide⟩).val :=
  dot_S64x1024_S1024x1024_S64x1024_1_1_0_0_n_n.lhsIdx_val_of_single rfl i q
theorem rhs_row (i : S64x1024.Idx) (q : dot_S64x1024_S1024x1024_S64x1024_1_1_0_0_n_n.contr.Idx) : (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide),
    dif_pos (show (0 : Fin S1024x1024.rank) ∈ dot_S64x1024_S1024x1024_S64x1024_1_1_0_0_n_n.rhsNonContracting by decide)]
  rfl
theorem rhs_col (i : S64x1024.Idx) (q : dot_S64x1024_S1024x1024_S64x1024_1_1_0_0_n_n.contr.Idx) : (dot_S64x1024_S1024x1024_S64x1024_1_1_0_0_n_n.rhsIdx i q 1).val = (q ⟨0, by decide⟩).val :=
  dot_S64x1024_S1024x1024_S64x1024_1_1_0_0_n_n.rhsIdx_val_of_single rfl i q

/-- The step's block product into the zero block: entry `(b, j)` is the sum over the step's 1024 input features of the
    tile's row `b` against the weight block's row `j`. -/
theorem blockProduct_apply (l : FVec Ideal S64x1024 .f32) (r : FVec Ideal S1024x1024 .f32) (b : Fin 64) (j : Fin 1024) :
    matmul dot_S64x1024_S1024x1024_S64x1024_1_1_0_0_n_n none l r (constant S64x1024 .f32 0x00000000#32) (ix2 b j)
      = ∑ k : Fin 1024, l (ix2 b k) * r (ix2 j k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 b j) ((contrEquiv1 dot_S64x1024_S1024x1024_S64x1024_1_1_0_0_n_n 1024 rfl rfl).symm k) = ix2 b k :=
    funext fun a => Fin.ext (by
      match a with
      | ⟨0, _⟩ => exact lhs_row _ _
      | ⟨1, _⟩ => exact (lhs_col _ _).trans hk)
  have er : dot_S64x1024_S1024x1024_S64x1024_1_1_0_0_n_n.rhsIdx (ix2 b j) ((contrEquiv1 dot_S64x1024_S1024x1024_S64x1024_1_1_0_0_n_n 1024 rfl rfl).symm k) = ix2 j k :=
    funext fun a => Fin.ext (by
      match a with
      | ⟨0, _⟩ => exact rhs_row _ _
      | ⟨1, _⟩ => exact (rhs_col _ _).trans hk)
  rw [el, er]

/-- The accumulator update, as one expression of the loaded blocks. -/
theorem update_eq (rho mu eps : FVec Ideal S1024x1024 .f32) (tile acc : FVec Ideal S64x1024 .f32) :
    k0_pay2 rho mu eps tile acc
      = addf acc (matmul dot_S64x1024_S1024x1024_S64x1024_1_1_0_0_n_n none tile (addf mu (mulf eps (softplusBlock rho))) (constant S64x1024 .f32 0x00000000#32)) := by
  unfold k0_pay2 softplusBlock
  exact shapeCast_self _ _

/-- The accumulator update at an entry. -/
theorem update_apply (rho mu eps : FVec Ideal S1024x1024 .f32) (tile acc : FVec Ideal S64x1024 .f32) (b : Fin 64) (j : Fin 1024) :
    k0_pay2 rho mu eps tile acc (ix2 b j)
      = acc (ix2 b j) + ∑ k : Fin 1024, tile (ix2 b k) * sample (mu (ix2 j k)) (rho (ix2 j k)) (eps (ix2 j k)) := by
  rw [update_eq]
  show acc (ix2 b j) + matmul dot_S64x1024_S1024x1024_S64x1024_1_1_0_0_n_n none tile (addf mu (mulf eps (softplusBlock rho))) (constant S64x1024 .f32 0x00000000#32) (ix2 b j) = _
  rw [blockProduct_apply]
  refine congrArg (fun s : EReal => acc (ix2 b j) + s) (Finset.sum_congr rfl fun k _ => ?_)
  rw [sampleBlock_apply]

/-- The zero fill at an entry. -/
theorem zero_apply (y : S64x1024.Idx) : k0_pay1 (F := Ideal) y = 0 := by
  unfold k0_pay1
  rw [shapeCast_self]
  exact Ideal.ofBits_zero_f32

/-- The final store, as one expression of the loaded blocks. -/
theorem final_eq (brho bmu beps : FVec Ideal S1x1024 .f32) (acc : FVec Ideal S64x1024 .f32) :
    k0_pay3 brho bmu beps acc
      = addf acc (broadcastTo S64x1024 (addf bmu (mulf beps (softplusBlock brho))) broadcasts_S1x1024_S64x1024) := by
  unfold k0_pay3 softplusBlock
  simp only [shapeCast_self]

/-- The final store at an entry: the accumulator plus the sampled bias of the entry's column. -/
theorem final_apply (brho bmu beps : FVec Ideal S1x1024 .f32) (acc : FVec Ideal S64x1024 .f32) (b : Fin 64) (j : Fin 1024) :
    k0_pay3 brho bmu beps acc (ix2 b j)
      = acc (ix2 b j) + sample (bmu (ix2 (0 : Fin 1) j)) (brho (ix2 (0 : Fin 1) j)) (beps (ix2 (0 : Fin 1) j)) := by
  rw [final_eq]
  show acc (ix2 b j) + broadcastTo S64x1024 (addf bmu (mulf beps (softplusBlock brho))) broadcasts_S1x1024_S64x1024 (ix2 b j) = _
  rw [broadcastTo_1b_ab_apply, sampleBlock_apply]

end Cert.KernelIdeal.Payload

end
-- ==== Proof.Step.lean ====
/-
  One reduction step, and the final store, as statements about the specification.

  If an accumulator entry holds the first `1024 · i` summands of entry `(b, o)`, the step's tile of `x` reads row `b`
  at columns `1024 · i + k`, and the step's sampled weight block reads row `o` of the sampled weights at the same
  columns, then the updated entry holds the first `1024 · (i + 1)` summands. After four steps it holds the whole sum,
  and adding the sampled bias of column `o` gives the layer's entry.
-/
import proofs.«140604_j37950331027759_2_alg».proof.Proof.Payload

noncomputable section

namespace Cert.KernelIdeal.Step

open Cert.KernelIdeal Cert.KernelIdeal.Gen Cert.KernelIdeal.Payload Cert.BayesLinear
open Idealize.ShloMosaic Idealize.ShloMosaic.ValueIdx

/-- One accumulator update advances the partial sum by one step. The step's columns are given as a function `col`
    with `col k = 1024 · i + k`. -/
theorem update_value (X : SX.Idx → EReal) (W : Fin 4096 → Fin 4096 → EReal) (b : Fin 64) (o : Fin 4096) (i : ℕ) (hi : i < 4)
    (rho mu eps : FVec Ideal S1024x1024 .f32) (tile acc : FVec Ideal S64x1024 .f32) (j : Fin 1024)
    (col : Fin 1024 → Fin 4096) (hcol : ∀ k : Fin 1024, (col k).val = 1024 * i + k.val)
    (hacc : acc (ix2 b j) = partialSum X W b o i)
    (htile : ∀ k : Fin 1024, tile (ix2 b k) = X (ix2 b (col k)))
    (hw : ∀ k : Fin 1024, sample (mu (ix2 j k)) (rho (ix2 j k)) (eps (ix2 j k)) = W o (col k)) :
    k0_pay2 (F := Ideal) rho mu eps tile acc (ix2 b j) = partialSum X W b o (i + 1) := by
  rw [update_apply, hacc, partialSum_succ]
  refine congrArg (fun s : EReal => partialSum X W b o i + s) (step_sum X W b o i hi _ (fun k => ?_))
  have e : col k = ⟨1024 * i + k.val, by have := k.isLt; omega⟩ := Fin.ext (hcol k)
  rw [htile k, hw k, e]

/-- The first update starts from the zero fill. -/
theorem first_value (X : SX.Idx → EReal) (W : Fin 4096 → Fin 4096 → EReal) (b : Fin 64) (o : Fin 4096)
    (rho mu eps : FVec Ideal S1024x1024 .f32) (tile : FVec Ideal S64x1024 .f32) (j : Fin 1024)
    (col : Fin 1024 → Fin 4096) (hcol : ∀ k : Fin 1024, (col k).val = 1024 * 0 + k.val)
    (htile : ∀ k : Fin 1024, tile (ix2 b k) = X (ix2 b (col k)))
    (hw : ∀ k : Fin 1024, sample (mu (ix2 j k)) (rho (ix2 j k)) (eps (ix2 j k)) = W o (col k)) :
    k0_pay2 (F := Ideal) rho mu eps tile (k0_pay1 (F := Ideal)) (ix2 b j) = partialSum X W b o (0 + 1) :=
  update_value X W b o 0 (by omega) rho mu eps tile _ j col hcol
    ((zero_apply _).trans (partialSum_zero X W b o).symm) htile hw

/-- The final store turns the full sum into the layer's entry. -/
theorem final_value (x : SX.Idx → EReal) (Wmu Wrho : SW.Idx → EReal) (bmu brho : SB.Idx → EReal) (Wrand : SW.Idx → EReal)
    (brand : SB.Idx → EReal) (b : Fin 64) (o : Fin 4096)
    (brhoB bmuB bepsB : FVec Ideal S1x1024 .f32) (acc : FVec Ideal S64x1024 .f32) (j : Fin 1024)
    (hacc : acc (ix2 b j) = partialSum x (weight Wmu Wrho Wrand) b o 4)
    (hb : sample (bmuB (ix2 (0 : Fin 1) j)) (brhoB (ix2 (0 : Fin 1) j)) (bepsB (ix2 (0 : Fin 1) j)) = bias bmu brho brand o) :
    k0_pay3 (F := Ideal) brhoB bmuB bepsB acc (ix2 b j) = entry x Wmu Wrho bmu brho Wrand brand b o := by
  rw [final_apply, hacc, hb, partialSum_four]
  rfl

end Cert.KernelIdeal.Step

end
-- ==== Proof.Accum.lean ====
/-
  What the accumulator and the output block hold, point by point.

  Point `n` of the grid is reduction step `n % 4` of output block `n / 4`. After its body the accumulator's entry
  `(b, j)` holds the first `1024 · (n % 4 + 1)` summands of the layer's entry `(b, 1024 · (n / 4) + j)`: at a step 0 the
  zero fill plus the first 1024 summands, at a later step what the point before left (same output block, one step
  fewer) plus the next 1024. This is an induction on the point; which of the three forms of the body ran is read off
  `n % 4`. At a step 3 the output block's entry is then the full sum plus the sampled bias: the layer's entry.
-/
import proofs.«140604_j37950331027759_2_alg».proof.Proof.Geometry
import proofs.«140604_j37950331027759_2_alg».proof.Proof.Step

set_option maxRecDepth 16384

noncomputable section

namespace Cert.KernelIdeal.Accum

open Cert.KernelIdeal Cert.KernelIdeal.Gen Cert.KernelIdeal.Pieces Cert.KernelIdeal.Geometry Cert.KernelIdeal.Step
open Cert.BayesLinear
open Idealize.ShloMosaic Idealize.ShloMosaic.TcCoe Idealize.SL.Sem Idealize.ShloMosaic.ValueIdx

variable (m : (ℓ : Loc nD τ sig) → Buf (Elt Ideal) ℓ)

/-- The sampled weights, from the three weight arrays as the region finds them. -/
abbrev sampled (c : Dev nD) : Fin 4096 → Fin 4096 → EReal :=
  weight (V m c main_arg1) (V m c main_arg2) (V m c main_arg5)

/-! ## What a point leaves, as the body's arithmetic of the point's blocks -/

/-- After a step-0 point the accumulator is the update of the zero fill. -/
theorem scratch_step0 (c : Dev nD) (T : Fin cfg0.N) (h0 : T.val % 4 = 0) (h1 : ¬T.val % 4 = 3) :
    (outsAt0 m c T.val T.isLt).2 = k0_pay2 (F := Ideal) (iblk m c 2 T) (iblk m c 1 T) (iblk m c 3 T) (xtile (grid0.coords T) (iblk m c 0 T)) (k0_pay1 (F := Ideal)) := by
  rw [outsAt0_A m c T h0 h1]
  dsimp only
  exact scratch_first (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) scM0_0 (Memref.isWhole_whole _) ((hcond0_0 T).mpr h0) (fun h => h1 ((hcond0_1 T).mp h)) (iblk m c 0 T) (iblk m c 1 T) (iblk m c 2 T) (iblk m c 3 T) (iblk m c 4 T) (iblk m c 5 T) (iblk m c 6 T)

/-- After a step-1 or step-2 point the accumulator is the update of what the point before left. -/
theorem scratch_step12 (c : Dev nD) (T : Fin cfg0.N) (h0 : ¬T.val % 4 = 0) (h1 : ¬T.val % 4 = 3) :
    (outsAt0 m c T.val T.isLt).2 = k0_pay2 (F := Ideal) (iblk m c 2 T) (iblk m c 1 T) (iblk m c 3 T) (xtile (grid0.coords T) (iblk m c 0 T)) (outsAt0 m c (T.val - 1) (Nat.lt_of_le_of_lt (Nat.sub_le _ _) T.isLt)).2 := by
  rw [outsAt0_B m c T h0 h1]
  dsimp only
  exact scratch_middle (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) scM0_0 (Memref.isWhole_whole _) (fun h => h0 ((hcond0_0 T).mp h)) (fun h => h1 ((hcond0_1 T).mp h)) (iblk m c 0 T) (iblk m c 1 T) (iblk m c 2 T) (iblk m c 3 T) (iblk m c 4 T) (iblk m c 5 T) (iblk m c 6 T) (outsAt0 m c (T.val - 1) (Nat.lt_of_le_of_lt (Nat.sub_le _ _) T.isLt)).2

/-- After a step-3 point likewise. -/
theorem scratch_step3 (c : Dev nD) (T : Fin cfg0.N) (h0 : ¬T.val % 4 = 0) (h1 : T.val % 4 = 3) :
    (outsAt0 m c T.val T.isLt).2 = k0_pay2 (F := Ideal) (iblk m c 2 T) (iblk m c 1 T) (iblk m c 3 T) (xtile (grid0.coords T) (iblk m c 0 T)) (outsAt0 m c (T.val - 1) (Nat.lt_of_le_of_lt (Nat.sub_le _ _) T.isLt)).2 := by
  rw [outsAt0_C m c T h0 h1]
  dsimp only
  exact scratch_last (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) scM0_0 (Memref.isWhole_whole _) (fun h => h0 ((hcond0_0 T).mp h)) ((hcond0_1 T).mpr h1) (iblk m c 0 T) (iblk m c 1 T) (iblk m c 2 T) (iblk m c 3 T) (iblk m c 4 T) (iblk m c 5 T) (iblk m c 6 T) (outsAt0 m c (T.val - 1) (Nat.lt_of_le_of_lt (Nat.sub_le _ _) T.isLt)).2

/-- After a step-3 point the output block is the updated accumulator plus the sampled bias row. -/
theorem output_step3 (c : Dev nD) (T : Fin cfg0.N) (h0 : ¬T.val % 4 = 0) (h1 : T.val % 4 = 3) :
    (outsAt0 m c T.val T.isLt).1 = k0_pay3 (F := Ideal) (iblk m c 5 T) (iblk m c 4 T) (iblk m c 6 T) (k0_pay2 (F := Ideal) (iblk m c 2 T) (iblk m c 1 T) (iblk m c 3 T) (xtile (grid0.coords T) (iblk m c 0 T)) (outsAt0 m c (T.val - 1) (Nat.lt_of_le_of_lt (Nat.sub_le _ _) T.isLt)).2) := by
  rw [outsAt0_C m c T h0 h1]
  dsimp only
  exact output_last (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) scM0_0 (Memref.isWhole_whole _) (fun h => h0 ((hcond0_0 T).mp h)) ((hcond0_1 T).mpr h1) (iblk m c 0 T) (iblk m c 1 T) (iblk m c 2 T) (iblk m c 3 T) (iblk m c 4 T) (iblk m c 5 T) (iblk m c 6 T) (outsAt0 m c (T.val - 1) (Nat.lt_of_le_of_lt (Nat.sub_le _ _) T.isLt)).2

/-! ## The accumulator, entry by entry -/

/-- A STEP-0 POINT: the accumulator holds the first 1024 summands. -/
theorem scratch_at_first (c : Dev nD) (T : Fin cfg0.N) (h0 : T.val % 4 = 0) (hN : T.val < 16) (b : Fin 64) (j : Fin 1024) :
    ((outsAt0 m c T.val T.isLt).2 : FVec Ideal S64x1024 .f32) (ix2 b j)
      = partialSum (V m c main_arg0) (sampled m c) b (orow T.val hN j) (0 + 1) := by
  rw [scratch_step0 m c T h0 (by omega)]
  exact first_value (V m c main_arg0) (sampled m c) b (orow T.val hN j) (iblk m c 2 T) (iblk m c 1 T) (iblk m c 3 T) (xtile (grid0.coords T) (iblk m c 0 T)) j
    (icol T.val) (fun k => by show 1024 * (T.val % 4) + k.val = 1024 * 0 + k.val; omega)
    (fun k => tile_apply m c T b k) (fun k => congr (congr (congrArg sample (weightBlock1_apply m c T hN j k)) (weightBlock2_apply m c T hN j k)) (weightBlock3_apply m c T hN j k))

/-- A LATER POINT: the accumulator holds one more step than the point before left. -/
theorem scratch_at_later (c : Dev nD) (T : Fin cfg0.N) (h0 : ¬T.val % 4 = 0) (hN : T.val < 16) (b : Fin 64) (j : Fin 1024)
    (hprev : ((outsAt0 m c (T.val - 1) (Nat.lt_of_le_of_lt (Nat.sub_le _ _) T.isLt)).2 : FVec Ideal S64x1024 .f32) (ix2 b j)
      = partialSum (V m c main_arg0) (sampled m c) b (orow T.val hN j) (T.val % 4)) :
    ((outsAt0 m c T.val T.isLt).2 : FVec Ideal S64x1024 .f32) (ix2 b j)
      = partialSum (V m c main_arg0) (sampled m c) b (orow T.val hN j) (T.val % 4 + 1) := by
  have step : k0_pay2 (F := Ideal) (iblk m c 2 T) (iblk m c 1 T) (iblk m c 3 T) (xtile (grid0.coords T) (iblk m c 0 T)) (outsAt0 m c (T.val - 1) (Nat.lt_of_le_of_lt (Nat.sub_le _ _) T.isLt)).2 (ix2 b j)
      = partialSum (V m c main_arg0) (sampled m c) b (orow T.val hN j) (T.val % 4 + 1) :=
    update_value (V m c main_arg0) (sampled m c) b (orow T.val hN j) (T.val % 4) (by omega)
      (iblk m c 2 T) (iblk m c 1 T) (iblk m c 3 T) (xtile (grid0.coords T) (iblk m c 0 T)) (outsAt0 m c (T.val - 1) (Nat.lt_of_le_of_lt (Nat.sub_le _ _) T.isLt)).2 j (icol T.val) (fun k => rfl) hprev
      (fun k => tile_apply m c T b k) (fun k => congr (congr (congrArg sample (weightBlock1_apply m c T hN j k)) (weightBlock2_apply m c T hN j k)) (weightBlock3_apply m c T hN j k))
  by_cases h1 : T.val % 4 = 3
  · rw [scratch_step3 m c T h0 h1]; exact step
  · rw [scratch_step12 m c T h0 h1]; exact step

/-- THE ACCUMULATOR after any point `T`: entry `(b, j)` is the partial sum of `T % 4 + 1` steps for output feature
    `1024 · (T / 4) + j` — by induction on the point's number. -/
theorem scratch_eq (c : Dev nD) : ∀ (n : ℕ) (T : Fin cfg0.N), T.val = n → ∀ (hN : T.val < 16) (b : Fin 64) (j : Fin 1024),
    ((outsAt0 m c T.val T.isLt).2 : FVec Ideal S64x1024 .f32) (ix2 b j)
      = partialSum (V m c main_arg0) (sampled m c) b (orow T.val hN j) (T.val % 4 + 1) := by
  intro n
  induction n with
  | zero =>
    intro T hT hN b j
    have h0 : T.val % 4 = 0 := by omega
    rw [h0]
    exact scratch_at_first m c T h0 hN b j
  | succ n ih =>
    intro T hT hN b j
    by_cases h0 : T.val % 4 = 0
    · rw [h0]
      exact scratch_at_first m c T h0 hN b j
    · have hlt : T.val - 1 < cfg0.N := Nat.lt_of_le_of_lt (Nat.sub_le _ _) T.isLt
      have hp := ih ⟨T.val - 1, hlt⟩ (by show T.val - 1 = n; omega) (by show T.val - 1 < 16; omega) b j
      have ho : orow (T.val - 1) (by omega) j = orow T.val hN j :=
        Fin.ext (by show 1024 * ((T.val - 1) / 4) + j.val = 1024 * (T.val / 4) + j.val; omega)
      have hs : (T.val - 1) % 4 + 1 = T.val % 4 := by omega
      refine scratch_at_later m c T h0 hN b j ?_
      refine hp.trans ?_
      show partialSum (V m c main_arg0) (sampled m c) b (orow (T.val - 1) _ j) ((T.val - 1) % 4 + 1) = _
      rw [ho, hs]

end Cert.KernelIdeal.Accum

end
-- ==== Proof.Blocks.lean ====
/-
  From the output blocks to the result array.

  The output block of output features `1024 · q … 1024 · q + 1023` is written back once, after reduction step 3 of that
  block (point `4 · q + 3`). What is written back there is, entry by entry, the layer's result: the accumulator
  holds the full sum over the 4096 input features, and the body adds the sampled bias. The four write-backs cover
  the 64 × 4096 result array — column `o` lies in the block of point `4 · (o / 1024) + 3` — so after the run the array
  is the specification `G` of the seven arguments.
-/
import proofs.«140604_j37950331027759_2_alg».proof.Proof.Accum
import proofs.«140604_j37950331027759_2_alg».proof.Proof.Gen.KernelIdeal.Value

set_option maxRecDepth 16384

noncomputable section

namespace Cert.KernelIdeal.Blocks

open Cert.KernelIdeal Cert.KernelIdeal.Gen Cert.KernelIdeal.Pieces Cert.KernelIdeal.Geometry Cert.KernelIdeal.Step
open Cert.KernelIdeal.Accum Cert.BayesLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- THE OUTPUT BLOCK at a step-3 point: entry `(b, j)` is the layer's entry `(b, 1024 · (T / 4) + j)`. -/
theorem output_eq (c : Dev nD) (T : Fin cfg0.N) (h3 : T.val % 4 = 3) (hN : T.val < 16) (b : Fin 64) (j : Fin 1024) :
    ((outsAt0 m c T.val T.isLt).1 : FVec Ideal S64x1024 .f32) (ix2 b j)
      = entry (V m c main_arg0) (V m c main_arg1) (V m c main_arg2) (m ((c : Thread nD τ).loc main_arg3)) (m ((c : Thread nD τ).loc main_arg4)) (V m c main_arg5) (m ((c : Thread nD τ).loc main_arg6))
          b (orow T.val hN j) := by
  have h0 : ¬T.val % 4 = 0 := by omega
  rw [output_step3 m c T h0 h3]
  refine final_value (V m c main_arg0) (V m c main_arg1) (V m c main_arg2) (m ((c : Thread nD τ).loc main_arg3)) (m ((c : Thread nD τ).loc main_arg4)) (V m c main_arg5) (m ((c : Thread nD τ).loc main_arg6))
    b (orow T.val hN j) (iblk m c 5 T) (iblk m c 4 T) (iblk m c 6 T) (k0_pay2 (F := Ideal) (iblk m c 2 T) (iblk m c 1 T) (iblk m c 3 T) (xtile (grid0.coords T) (iblk m c 0 T)) (outsAt0 m c (T.val - 1) (Nat.lt_of_le_of_lt (Nat.sub_le _ _) T.isLt)).2) j ?_ ?_
  · have hs := scratch_eq m c T.val T rfl hN b j
    rw [show T.val % 4 + 1 = 4 from by omega, scratch_step3 m c T h0 h3] at hs
    exact hs
  · exact congr (congr (congrArg sample ((biasBlock4_apply m c T hN j).trans (biasMu_apply m c _)))
      ((biasBlock5_apply m c T hN j).trans (biasRho_apply m c _))) ((biasBlock6_apply m c T hN j).trans (biasEps_apply m c _))

/-- The result array the run ends with: the specification of the seven arguments. -/
abbrev result (c : Dev nD) : Buf (Elt Ideal) ((c : Thread nD τ).loc main_v3) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Where entry `(b, j)` of point `t`'s output block sits in the result array. -/
theorem out_emb (t : Fin cfg0.N) (hN : t.val < 16) (b : Fin 64) (j : Fin 1024) :
    ((cfg0.win 7).blk t).view.emb (ix2 b j) = ix2 b (orow t.val hN j) := by
  have hi := idxO t
  funext a
  apply Fin.ext
  match a with
  | ⟨0, _⟩ => show win0_7.index t 0 * 64 + 1 * b.val = b.val; rw [hi.1]; omega
  | ⟨1, _⟩ => show win0_7.index t 1 * 1024 + 1 * j.val = 1024 * (t.val / 4) + j.val; rw [hi.2]; omega

/-- What a write-back writes, read at an entry of the block: the result array at the entry's place. -/
theorem out_read (c : Dev nD) (t : Fin cfg0.N) (h3 : t.val % 4 = 3) (hN : t.val < 16) (y : S64x1024.Idx) :
    ((outsAt0 m c t.val t.isLt).1 : FVec Ideal S64x1024 .f32) y = result m c (((cfg0.win 7).blk t).view.emb y) := by
  obtain ⟨b, j, rfl⟩ : ∃ (b : Fin 64) (j : Fin 1024), y = ix2 b j := ⟨y 0, y 1, eq_ix2 y⟩
  rw [output_eq m c t h3 hN b j, out_emb t hN b j, V_main_arg0 m c, V_main_arg1 m c, V_main_arg2 m c, V_main_arg5 m c]
  rfl

/-- WHAT A WRITE-BACK WRITES is the block of the result array under it. -/
theorem flushed_eq (c : Dev nD) (t : Fin cfg0.N) (hf : (cfg0.win 7).flush t = true) :
    (dats m 0 c).flushed 7 t = ((cfg0.win 7).blk t).view.read (Elt Ideal) (result m c) := by
  have h3 : t.val % 4 = 3 := (flush0_7 t).mp hf
  have hN : t.val < 16 := lt_of_lt_of_eq t.isLt N_0
  rw [Cert.KernelIdeal.Value.flushed7]
  funext y
  rw [View.read_apply]
  exact out_read m c t h3 hN y

/-- An index of the result array is in point `t`'s block iff each coordinate is in the block's range. -/
theorem mem_blk (t : Fin cfg0.N) (i : S64x4096.Idx) :
    i ∈ ((cfg0.win 7).blk t).view.set ↔ ∀ a : Fin 2, win0_7.index t a * S64x1024.size a ≤ (i a).val
      ∧ (i a).val < win0_7.index t a * S64x1024.size a + S64x1024.size a := by
  show i ∈ ((View.whole main_v3).slice (win0_7.rect t)).set ↔ _
  rw [View.set_slice_whole, Rect.mem_set_unit]
  exact Iff.rfl

/-- THE COVER: column `o` of the result array lies in the block written back at point `4 · (o / 1024) + 3`. -/
theorem cover (i : S64x4096.Idx) :
    ∃ t : Fin cfg0.N, (cfg0.win 7).flush t = true ∧ i ∈ ((cfg0.win 7).blk t).view.set := by
  have h0 : (i 0).val < 64 := (i 0).isLt
  have h1 : (i 1).val < 4096 := (i 1).isLt
  have hlt : 4 * ((i 1).val / 1024) + 3 < cfg0.N := by rw [show cfg0.N = 16 from N_0]; omega
  refine ⟨⟨4 * ((i 1).val / 1024) + 3, hlt⟩, (flush0_7 _).mpr (by show (4 * ((i 1).val / 1024) + 3) % 4 = 3; omega), ?_⟩
  rw [mem_blk]
  have hi := idxO ⟨4 * ((i 1).val / 1024) + 3, hlt⟩
  have hq : (⟨4 * ((i 1).val / 1024) + 3, hlt⟩ : Fin cfg0.N).val / 4 = (i 1).val / 1024 := by
    show (4 * ((i 1).val / 1024) + 3) / 4 = (i 1).val / 1024; omega
  intro a
  match a with
  | ⟨0, _⟩ =>
    show win0_7.index _ 0 * 64 ≤ (i 0).val ∧ (i 0).val < win0_7.index _ 0 * 64 + 64
    rw [hi.1]; omega
  | ⟨1, _⟩ =>
    show win0_7.index _ 1 * 1024 ≤ (i 1).val ∧ (i 1).val < win0_7.index _ 1 * 1024 + 1024
    rw [hi.2, hq]; omega

/-- THE RESULT ARRAY after the run is the specification of the arguments. -/
theorem final (c : Dev nD) : (dats m 0 c).arrAt 7 cfg0.N = result m c :=
  (dats m 0 c).arrAt_eq_of_cover 7 (result m c) (flushed_eq m c) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Blocks

end
-- ==== Proof.lean ====
/-
  A Bayesian linear layer: the kernel against its reference, on the extended reals.

  Both programs compute, for a batch `x` of 64 rows of 4096 input features,

      out[b, o] = (Σ_{k < 4096} x[b, k] · W[o, k]) + bias[o],
      W[o, k]   = W_mu[o, k] + W_rand[o, k] · softplus (W_rho[o, k]),
      bias[o]   = b_mu[o] + b_rand[o] · softplus (b_rho[o]),      softplus r = max r 0 + log (1 + e^(-|r|)).

  The reference forms all of `W` and the bias, contracts once over the 4096 input features, and adds the bias. It
  writes softplus as `logaddexp 0 r`, which guards against an undefined difference `0 - r` and otherwise is
  `max 0 r + log (1 + e^(-|0 - r|))`; no extended real differs from itself, so the guard is never taken, and
  `|0 - r| = |r|`: the same function (Softplus.lean, RefValue.lean).

  The kernel walks a 4 × 4 grid: an output block of 1024 features, and for it four reduction steps of 1024 input
  features each. A step samples its 1024 × 1024 weight block in place and adds the block product with the step's
  columns of `x` into a 64 × 1024 accumulator, zeroed at step 0; after step 3 it adds the sampled bias row and writes
  the output block back. Entry by entry the accumulator after `i + 1` steps holds the first `1024 · (i + 1)` summands
  (Payload.lean, Step.lean, Accum.lean: an induction on the grid point), so what is written back is the layer's
  entry, and the four write-backs tile the result array (Geometry.lean, Blocks.lean).

  The two sides differ only in how the one sum over 4096 terms is grouped, which needs commutativity and
  associativity of `+` alone, and these hold on all extended reals: the precondition that the inputs are finite
  is not used. The kernel's idealization rewrote no operation, so `preserves` has nothing to state.
-/
import proofs.«140604_j37950331027759_2_alg».proof.Defs
import proofs.«140604_j37950331027759_2_alg».proof.Proof.Gen.Kernel
import proofs.«140604_j37950331027759_2_alg».proof.Proof.Gen.Kernel.Skeleton
import proofs.«140604_j37950331027759_2_alg».proof.Proof.Gen.Kernel.Launch
import proofs.«140604_j37950331027759_2_alg».proof.Proof.Gen.Kernel.Points
import proofs.«140604_j37950331027759_2_alg».proof.Proof.Gen.Kernel.Frame
import proofs.«140604_j37950331027759_2_alg».proof.Proof.Gen.KernelIdeal
import proofs.«140604_j37950331027759_2_alg».proof.Proof.Gen.KernelIdeal.Skeleton
import proofs.«140604_j37950331027759_2_alg».proof.Proof.Gen.KernelIdeal.Launch
import proofs.«140604_j37950331027759_2_alg».proof.Proof.Gen.KernelIdeal.Points
import proofs.«140604_j37950331027759_2_alg».proof.Proof.Gen.KernelIdeal.Frame
import proofs.«140604_j37950331027759_2_alg».proof.Proof.Gen.ReferenceIdeal
import proofs.«140604_j37950331027759_2_alg».proof.Proof.Gen.Pre_finite_inputs
import proofs.«140604_j37950331027759_2_alg».proof.Proof.Gen.KernelIdeal.Value
import proofs.«140604_j37950331027759_2_alg».proof.Proof.Gen.ReferenceIdeal.Run
import proofs.«140604_j37950331027759_2_alg».proof.Proof.Gen.ReferenceIdeal.Read
import proofs.«140604_j37950331027759_2_alg».proof.Proof.RefValue
import proofs.«140604_j37950331027759_2_alg».proof.Proof.Blocks
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at `G` of its arguments (Blocks.lean) and the reference's at
    `G` of its own (RefValue.lean); the arguments agree, so the results do. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v33_eq, Cert.BayesLinear.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
